-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_sqrt_d" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x128 : Shape := ⟨2, ![1024, 128]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S1024x1024 .f32) (main_arg1 : FVec F S1024x128 .f32) (main_arg2 : FVec F S1024x128 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  main_v13
-- ==== Kernel.lean ====
abbrev S1024x1024 : Shape := ⟨2, ![1024, 1024]⟩
abbrev S1024x128 : Shape := ⟨2, ![1024, 128]⟩
abbrev S_ : Shape := ⟨0, ![]⟩
abbrev S1024x1 : Shape := ⟨2, ![1024, 1]⟩
abbrev S1024x127 : Shape := ⟨2, ![1024, 127]⟩
abbrev S1024x256 : Shape := ⟨2, ![1024, 256]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 9
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1024x128, .f32⟩
  | .hbm, ⟨2, _⟩ => ⟨S1024x128, .f32⟩
  | .hbm, ⟨3, _⟩ => ⟨S_, .f32⟩
  | .hbm, ⟨4, _⟩ => ⟨S1024x1, .f32⟩
  | .hbm, ⟨5, _⟩ => ⟨S_, .f32⟩
  | .hbm, ⟨6, _⟩ => ⟨S1024x127, .f32⟩
  | .hbm, ⟨7, _⟩ => ⟨S1024x256, .f32⟩
  | .hbm, ⟨8, _⟩ => ⟨S1024x128, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1024x256, .f32⟩
  | .local _ .vmem, ⟨5, _⟩ => ⟨S512x128, .f32⟩
  | .local _ .vmem, ⟨6, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x1 : S_.BroadcastsInDim S1024x1 (![] : Fin 0 → Fin S1024x1.rank)
  bcast_S_S1024x127 : S_.BroadcastsInDim S1024x127 (![] : Fin 0 → Fin S1024x127.rank)
  concatenates_S1024x128_S1024x1_S1024x127_S1024x256_d1 : Shape.Concatenates [S1024x128, S1024x1, S1024x127] S1024x256 1
  inb_S512x128_S512x128_0_0 : ∀ a, (![0, 0] : Fin 2 → Nat) a + S512x128.size a ≤ S512x128.size a
  h_S512x128 : 0 < S512x128.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S1024x256_o0_0_S1024x128 : S1024x256.Slices ![0, 0] S1024x128
  inb_S512x1024_S512x1024_0_0 : ∀ a, (![0, 0] : Fin 2 → Nat) a + S512x1024.size a ≤ S512x1024.size a
  h_S512x1024 : 0 < S512x1024.numel
  natLt_1_32 : 1 < 32
  reduces_S512x1024_S512 : S512x1024.Reduces [1] S512
  shapeCasts_S512_S512x1 : S512.ShapeCasts S512x1
  broadcasts_S512x1_S512x1024 : S512x1.Broadcasts S512x1024
  slices_S512x256_o0_128_S512x1 : S512x256.Slices ![0, 128] S512x1
  slices_S512x256_o0_0_S512x128 : S512x256.Slices ![0, 0] S512x128
  broadcasts_S512x1_S512x128 : S512x1.Broadcasts S512x128
  dot_S512x128_S1024x128_S512x1024_1_1_0_0_n_n_wf : DotDims.WF S512x128 S1024x128 S512x1024 [1] [1] [0] [0] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x1024.size a
  hwx0_0 : ∀ i : grid0.Coords, EltTy.bits .f32 = 32 ∨ (Rect.block (s := S1024x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S1024x128.size a
  hwx0_1 : ∀ i : grid0.Coords, EltTy.bits .f32 = 32 ∨ (Rect.block (s := S1024x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S1024x128.size a
  hwx0_3 : ∀ i : grid0.Coords, EltTy.bits .f32 = 32 ∨ (Rect.block (s := S1024x128) S512x128.size (cc0_transform_3 i) (hinb0_3 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x128 : Shape := ⟨2, ![1024, 128]⟩
abbrev S_ : Shape := ⟨0, ![]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1024 : Shape := ⟨1, ![1024]⟩
abbrev S1024x1 : Shape := ⟨2, ![1024, 1]⟩
abbrev S1024x1024x1 : Shape := ⟨3, ![1024, 1024, 1]⟩

abbrev nBuf : Space → Nat
  | .hbm => 67
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x128, .f32⟩
  | .hbm, ⟨2, _⟩ => ⟨S1024x128, .f32⟩
  | .hbm, ⟨3, _⟩ => ⟨S_, .f32⟩
  | .hbm, ⟨4, _⟩ => ⟨S1024x1024, .f32⟩
  | .hbm, ⟨5, _⟩ => ⟨S1024x1024, .i1⟩
  | .hbm, ⟨6, _⟩ => ⟨S1024x1x128, .f32⟩
  | .hbm, ⟨7, _⟩ => ⟨S1x1024x128, .f32⟩
  | .hbm, ⟨8, _⟩ => ⟨S1024x1024x128, .f32⟩
  | .hbm, ⟨9, _⟩ => ⟨S1024x1024x128, .f32⟩
  | .hbm, ⟨10, _⟩ => ⟨S1024x1024x128, .f32⟩
  | .hbm, ⟨11, _⟩ => ⟨S_, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .i1⟩
  | .hbm, ⟨25, _⟩ => ⟨S_, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024x1, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .i1⟩
  | .hbm, ⟨42, _⟩ => ⟨S_, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024x1, .f32⟩
  | .hbm, ⟨47, _⟩ => ⟨S1024x1024, .f32⟩
  | .hbm, ⟨48, _⟩ => ⟨S1024x1024, .f32⟩
  | .hbm, ⟨49, _⟩ => ⟨S1024x1024x1, .f32⟩
  | .hbm, ⟨50, _⟩ => ⟨S1x1024x128, .f32⟩
  | .hbm, ⟨51, _⟩ => ⟨S1024x1024x128, .f32⟩
  | .hbm, ⟨52, _⟩ => ⟨S1024x1024x128, .f32⟩
  | .hbm, ⟨53, _⟩ => ⟨S1024x1024x128, .f32⟩
  | .hbm, ⟨54, _⟩ => ⟨S_, .f32⟩
  | .hbm, ⟨55, _⟩ => ⟨S1024x128, .f32⟩
  | .hbm, ⟨56, _⟩ => ⟨S1024x1024, .i32⟩
  | .hbm, ⟨57, _⟩ => ⟨S_, .i32⟩
  | .hbm, ⟨58, _⟩ => ⟨S1024, .i32⟩
  | .hbm, ⟨59, _⟩ => ⟨S_, .i32⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S1024x1, .i32⟩
  | .hbm, ⟨64, _⟩ => ⟨S1024x1, .f32⟩
  | .hbm, ⟨65, _⟩ => ⟨S1024x128, .f32⟩
  | .hbm, ⟨66, _⟩ => ⟨S1024x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_call2_v0 : Ref sig .tc := ⟨.hbm, 34, rfl⟩
abbrev main_call2_v1 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_cst_8 : Ref sig .tc := ⟨.hbm, 39, rfl⟩
abbrev main_v21 : Ref sig .tc := ⟨.hbm, 40, rfl⟩
abbrev main_v22 : Ref sig .tc := ⟨.hbm, 41, rfl⟩
abbrev main_cst_9 : Ref sig .tc := ⟨.hbm, 42, rfl⟩
abbrev main_call3_v0 : Ref sig .tc := ⟨.hbm, 43, rfl⟩
abbrev main_call3_v1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_10 : Ref sig .tc := ⟨.hbm, 54, rfl⟩
abbrev main_v32 : Ref sig .tc := ⟨.hbm, 55, rfl⟩
abbrev main_v33 : Ref sig .tc := ⟨.hbm, 56, rfl⟩
abbrev main_c : Ref sig .tc := ⟨.hbm, 57, rfl⟩
abbrev main_v34 : Ref sig .tc := ⟨.hbm, 58, rfl⟩
abbrev main_c_11 : Ref sig .tc := ⟨.hbm, 59, rfl⟩
abbrev main_call4_v0 : Ref sig .tc := ⟨.hbm, 60, rfl⟩
abbrev main_call4_v1 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  reducesTo_S1024x1024x128_S1024x1024_d2 : S1024x1024x128.ReducesTo [2] S1024x1024
  h_S_ : 0 < S_.numel
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1024x1024_S1024x1024x1_0_1 : S1024x1024.BroadcastsInDim S1024x1024x1 (![0, 1] : Fin 2 → Fin S1024x1024x1.rank)
  bcast_S1024x1024x1_S1024x1024x128_0_1_2 : S1024x1024x1.BroadcastsInDim S1024x1024x128 (![0, 1, 2] : Fin 3 → Fin S1024x1024x128.rank)
  reducesTo_S1024x1024x128_S1024x128_d1 : S1024x1024x128.ReducesTo [1] S1024x128
  natLt_1_32 : 1 < 32
  bcast_S1024x1_S1024x128_0_1 : S1024x1.BroadcastsInDim S1024x128 (![0, 1] : Fin 2 → Fin S1024x128.rank)

variable [Facts₀]

class Facts : Prop extends Facts₀ where

variable [Facts]
-- ==== Proof.FrameIdeal.lean ====
/-
  The frame of the idealized program, written against the pipeline library's frame theorem.

  @main is five host operations (the constant 1 spread over a column [1024,1], the constant 0 spread over
  [1024,127], and their concatenation to the right of the embedding table into a [1024,256] array) followed by
  one region on a grid of two points.  The region stages a [512,1024] block of the mask source, a [512,128]
  block of the context rows, the whole [1024,256] augmented table, and writes back a [512,128] block of the
  result.  The body loads the three input blocks whole, computes one value, and stores it over the whole
  output block: what the output's staging buffer holds after the body is that one store, read as the
  canonical piece list over the input blocks.  From this: the body's triple, the pipeline's proof data, the
  body obligation at every point, the run of @main, and the frame statement (the three argument arrays end
  as launched).
-/
import proofs.«112334_g69982197121800_cont_sun_m_1311_11_alg».proof.Proof.Gen.KernelIdeal.Launch
import proofs.«112334_g69982197121800_cont_sun_m_1311_11_alg».proof.Proof.Gen.KernelIdeal.Skeleton
import proofs.«112334_g69982197121800_cont_sun_m_1311_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: the launch contents run through the five host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- Nor the third (the concatenation reads it and writes another buffer). -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or an
    earlier one did (the block index has not moved since). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the pipeline -/

/-- From a run to the library's frame post, the three argument arrays end as launched: the first two are staged
    inputs never written back, the third no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c)⟩) h

/-! ## The body's accesses -/

abbrev rCtx : Rect S512x128 := Rect.unit (s := S512x128) ![0, 0] S512x128.size inb_S512x128_S512x128_0_0
abbrev rTab : Rect S1024x256 := Rect.unit (s := S1024x256) ![0, 0] S1024x256.size inb_S1024x256_S1024x256_0_0
abbrev rZ : Rect S512x1024 := Rect.unit (s := S512x1024) ![0, 0] S512x1024.size inb_S512x1024_S512x1024_0_0

/-- The output's staging buffer after the body, from the three input blocks (mask source, context rows,
    augmented table): its one store as a piece. -/
def outBlock (xz : Vec F S512x1024 .f32) (xc : Vec F S512x128 .f32) (xt : Vec F S1024x256 .f32) : Vec F S512x128 .f32 :=
  View.canon [⟨rCtx, k0_pay1 (View.ld xc rCtx) (View.ld xt rTab) (View.ld xz rZ)⟩]

/-- The one store covers the buffer. -/
theorem outCover (p0 : Vec F S512x128 .f32) (y : S512x128.Idx) :
    ∃ pc ∈ ([⟨rCtx, p0⟩] : List (View.Piece (Elt F) S512x128 .f32)), y ∈ pc.1.set :=
  View.cover_of_tiled [⟨rCtx, p0⟩] S512x128.size (by rfl) y

/-! ## The body's triple -/

set_option maxHeartbeats 1000000 in
/-- The body on whole staging memrefs, the inputs' at contents `xz`, `xc`, `xt` and the output's at anything, runs to
    the continuation holding the inputs' as they were and the output's at `outBlock` of them. -/
theorem sound_kernel (c : Dev nD) (E : Set ℕ) (i : grid0.Coords) (arg1 : Memref sig .tc .vmem S512x1024 .f32) (harg1 : arg1.IsWhole) (arg2 : Memref sig .tc .vmem S512x128 .f32) (harg2 : arg2.IsWhole) (arg3 : Memref sig .tc .vmem S1024x256 .f32) (harg3 : arg3.IsWhole) (arg4 : Memref sig .tc .vmem S512x128 .f32) (harg4 : arg4.IsWhole)
    (xz : Vec F S512x1024 .f32) (xc : Vec F S512x128 .f32) (xt : Vec F S1024x256 .f32) (K : PUnit → sProp 𝕄) :
    iprop(owns (c : Thread nD τ) arg1 fullShare xz ∗ owns (c : Thread nD τ) arg2 fullShare xc ∗ owns (c : Thread nD τ) arg3 fullShare xt ∗ (∃ d, owns (c : Thread nD τ) arg4 fullShare d)
        ∗ (iprop(owns (c : Thread nD τ) arg1 fullShare xz ∗ owns (c : Thread nD τ) arg2 fullShare xc ∗ owns (c : Thread nD τ) arg3 fullShare xt ∗ owns (c : Thread nD τ) arg4 fullShare (outBlock xz xc xt)) -∗ K ⟨⟩))
      ⊢ wp frame (wpE (defs₀ (F := F)) Variants.none c none) E (cc0__fused_attn_kernel i arg1 harg1 arg2 harg2 arg3 harg3 arg4 harg4) K := by
  simp only [cc0__fused_attn_kernel_eq_skeleton]; unfold cc0__fused_attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- The proof data of the pipeline on core `c`: the arrays as the region finds them; after the body at point `t` each
    input's buffer at its block and the output's at `outBlock` of the three input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Frame

end
-- ==== Proof.FrameBits.lean ====
/-
  The frame of the program as printed, read at words, against the pipeline library's frame theorem.  Nothing
  in the argument depends on how a float is read: the body's one stored value stays an unopened name.

  @main is five host operations (the constant 1 spread over a column [1024,1], the constant 0 spread over
  [1024,127], and their concatenation to the right of the embedding table into a [1024,256] array) followed by
  one region on a grid of two points.  The region stages a [512,1024] block of the mask source, a [512,128]
  block of the context rows, the whole [1024,256] augmented table, and writes back a [512,128] block of the
  result.  The body loads the three input blocks whole, computes one value, and stores it over the whole
  output block: what the output's staging buffer holds after the body is that one store, read as the
  canonical piece list over the input blocks.  From this: the body's triple, the pipeline's proof data, the
  body obligation at every point, the run of @main, and the frame statement (the three argument arrays end
  as launched).
-/
import proofs.«112334_g69982197121800_cont_sun_m_1311_11_alg».proof.Proof.Gen.Kernel.Launch
import proofs.«112334_g69982197121800_cont_sun_m_1311_11_alg».proof.Proof.Gen.Kernel.Skeleton
import proofs.«112334_g69982197121800_cont_sun_m_1311_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: the launch contents run through the five host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- Nor the third (the concatenation reads it and writes another buffer). -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or an
    earlier one did (the block index has not moved since). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the pipeline -/

/-- From a run to the library's frame post, the three argument arrays end as launched: the first two are staged
    inputs never written back, the third no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c)⟩) h

/-! ## The body's accesses -/

abbrev rCtx : Rect S512x128 := Rect.unit (s := S512x128) ![0, 0] S512x128.size inb_S512x128_S512x128_0_0
abbrev rTab : Rect S1024x256 := Rect.unit (s := S1024x256) ![0, 0] S1024x256.size inb_S1024x256_S1024x256_0_0
abbrev rZ : Rect S512x1024 := Rect.unit (s := S512x1024) ![0, 0] S512x1024.size inb_S512x1024_S512x1024_0_0

/-- The output's staging buffer after the body, from the three input blocks (mask source, context rows,
    augmented table): its one store as a piece. -/
def outBlock (xz : Vec F S512x1024 .f32) (xc : Vec F S512x128 .f32) (xt : Vec F S1024x256 .f32) : Vec F S512x128 .f32 :=
  View.canon [⟨rCtx, k0_pay1 (View.ld xc rCtx) (View.ld xt rTab) (View.ld xz rZ)⟩]

/-- The one store covers the buffer. -/
theorem outCover (p0 : Vec F S512x128 .f32) (y : S512x128.Idx) :
    ∃ pc ∈ ([⟨rCtx, p0⟩] : List (View.Piece (Elt F) S512x128 .f32)), y ∈ pc.1.set :=
  View.cover_of_tiled [⟨rCtx, p0⟩] S512x128.size (by rfl) y

/-! ## The body's triple -/

set_option maxHeartbeats 1000000 in
/-- The body on whole staging memrefs, the inputs' at contents `xz`, `xc`, `xt` and the output's at anything, runs to
    the continuation holding the inputs' as they were and the output's at `outBlock` of them. -/
theorem sound_kernel (c : Dev nD) (E : Set ℕ) (i : grid0.Coords) (arg1 : Memref sig .tc .vmem S512x1024 .f32) (harg1 : arg1.IsWhole) (arg2 : Memref sig .tc .vmem S512x128 .f32) (harg2 : arg2.IsWhole) (arg3 : Memref sig .tc .vmem S1024x256 .f32) (harg3 : arg3.IsWhole) (arg4 : Memref sig .tc .vmem S512x128 .f32) (harg4 : arg4.IsWhole)
    (xz : Vec F S512x1024 .f32) (xc : Vec F S512x128 .f32) (xt : Vec F S1024x256 .f32) (K : PUnit → sProp 𝕄) :
    iprop(owns (c : Thread nD τ) arg1 fullShare xz ∗ owns (c : Thread nD τ) arg2 fullShare xc ∗ owns (c : Thread nD τ) arg3 fullShare xt ∗ (∃ d, owns (c : Thread nD τ) arg4 fullShare d)
        ∗ (iprop(owns (c : Thread nD τ) arg1 fullShare xz ∗ owns (c : Thread nD τ) arg2 fullShare xc ∗ owns (c : Thread nD τ) arg3 fullShare xt ∗ owns (c : Thread nD τ) arg4 fullShare (outBlock xz xc xt)) -∗ K ⟨⟩))
      ⊢ wp frame (wpE (defs₀ (F := F)) Variants.none c none) E (cc0__fused_attn_kernel i arg1 harg1 arg2 harg2 arg3 harg3 arg4 harg4) K := by
  simp only [cc0__fused_attn_kernel_eq_skeleton]; unfold cc0__fused_attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- The proof data of the pipeline on core `c`: the arrays as the region finds them; after the body at point `t` each
    input's buffer at its block and the output's at `outBlock` of the three input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Frame

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibMatmulRhsT.lean ====
/-
  A matrix product that contracts BOTH operands' last axes, read at an index, at the ideal values.

  For an [A, K] matrix times a [B, K] matrix contracting the left operand's columns with the right operand's columns
  (the product of the first with the transpose of the second, written without forming the transpose) a `tpu.matmul`
  into the zero accumulator is, at (p, m), the sum over k of L(p, k) · R(m, k): a sum indexed by `Fin K`, with both
  operands read at indices written by coordinates. The contraction index of the library's general statement is
  re-indexed through its one coordinate, and the operand indices it names are computed axis by axis.
-/
import Idealize.ShloMosaic.PureOps.Ideal.Laws
import Idealize.ShloMosaic.Lib.ValueIdx

noncomputable section

namespace Cert.LibMatmulRhsT

open Idealize.ShloMosaic Idealize.ShloMosaic.ValueIdx

/-- For an [A, K] by [B, K] product contracting both last axes, the left operand's index at result (p, m) and
    contraction coordinate k is (p, k). -/
theorem transposedRhs_lhsIdx (A K B : Nat) (p : Fin A) (m : Fin B) (k : Fin K) :
    (DotDims.transposedRhs A K B).lhsIdx (ix2 p m) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (m, k). -/
theorem transposedRhs_rhsIdx (A K B : Nat) (p : Fin A) (m : Fin B) (k : Fin K) :
    (DotDims.transposedRhs A K B).rhsIdx (ix2 p m) ((contrEquiv1 (DotDims.transposedRhs A K B) K rfl rfl).symm k) = ix2 m k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] by [B, K] product contracting both last axes, into the zero accumulator, read at (p, m):
    Σ_k L(p, k) · R(m, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (m : Fin B) :
    FloatOps.matmul (DotDims.transposedRhs A K B) prec lhs rhs (constant ⟨2, ![A, B]⟩ .f32 0x00000000#32) (ix2 p m)
      = ∑ k : Fin K, lhs (ix2 p k) * rhs (ix2 m k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Cert.LibMatmulRhsT

end
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.KernelPayload.lean ====
/-
  The value the body stores, read at a row and a column of the output block, at the ideal values.

  The body holds a block of 512 context rows C (512 x 128), the whole augmented table T (1024 x 256: the embedding
  table in columns 0..127, a column of ones at 128, zeros after it) and a block of 512 rows of the mask source Z
  (512 x 1024).  It computes, for a row p and a table row f,
      the scaled score      s(p, f) = (sum over k < 128 of C(p, k) * T(f, k)) * scale,
      the mask entry        b(p, f) = 1 if Z(p, f) > 0, else 0,
      the row's top score   top(p)  = the maximum over f of s(p, f)  (started from the word of minus infinity),
      the weight            w(p, f) = exp (s(p, f) - top(p)) * b(p, f),
      the products          acc(p, n) = sum over f of w(p, f) * T(f, n)         for every column n < 256,
      the row's count       cnt(p)  = max (sum over f of b(p, f)) 1,
  and stores  acc(p, j) / (guard (acc(p, 128)) * cnt(p))  at (p, j), j < 128, where guard d is 1 if d = 0 and d otherwise:
  column 128 of the products is the sum of the row's weights, because column 128 of the table is all ones.
  Each of these pieces is named, the stored value is their composition, and each piece is read at its coordinates.
-/
import proofs.«112334_g69982197121800_cont_sun_m_1311_11_alg».proof.Proof.Gen.KernelIdeal.Skeleton
import proofs.«112334_g69982197121800_cont_sun_m_1311_11_alg».proof.Proof.LibKeepdims
import proofs.«112334_g69982197121800_cont_sun_m_1311_11_alg».proof.Proof.LibPlainMatmul
import proofs.«112334_g69982197121800_cont_sun_m_1311_11_alg».proof.Proof.LibMatmulRhsT
import proofs.«112334_g69982197121800_cont_sun_m_1311_11_alg».proof.Proof.LibMaxReduce
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open Cert.LibKeepdims Cert.LibMaxReduce Cert.LibMatmulRhsT

/-- A column of the embedding part of the table as a column of the whole table. -/
abbrev lo (k : Fin 128) : Fin 256 := k.castLE (by decide)
/-- The column of ones. -/
abbrev onesCol : Fin 256 := ⟨128, by decide⟩
abbrev u0 : Fin 1 := ⟨0, Nat.one_pos⟩

/-! ## The pieces -/

/-- The table's embedding part (its first 128 columns). -/
def emb (xt : FVec Ideal S1024x256 .f32) : FVec Ideal S1024x128 .f32 :=
  extractStridedSlice S1024x128 ![0, 0] (shapeCast S1024x256 xt shapeCasts_S1024x256_S1024x256) slices_S1024x256_o0_0_S1024x128

/-- The scaled scores. -/
def scores (xc : FVec Ideal S512x128 .f32) (xt : FVec Ideal S1024x256 .f32) : FVec Ideal S512x1024 .f32 :=
  mulf (matmul dot_S512x128_S1024x128_S512x1024_1_1_0_0_n_n none xc (emb xt) (constant S512x1024 .f32 0x00000000#32))
    (broadcast S512x1024 (Named.named κ "inv_sqrt_d" 0x3DB504F3#32))

/-- The mask as zeros and ones. -/
def mask (xz : FVec Ideal S512x1024 .f32) : FVec Ideal S512x1024 .f32 :=
  sitofp .f32 (extui 32 (cmpf .ogt xz (broadcast S512x1024 (Scalar.ofBits .f32 0x00000000#32))) natLt_1_32)

/-- Each row's top score, spread over the row. -/
def top (s : FVec Ideal S512x1024 .f32) : FVec Ideal S512x1024 .f32 :=
  broadcastTo S512x1024 (shapeCast S512x1 (multiReduction .maximumf [1] S512 s 0xFF800000#32 reduces_S512x1024_S512 (.inl rfl) rfl) shapeCasts_S512_S512x1) broadcasts_S512x1_S512x1024

/-- The weights. -/
def weights (xc : FVec Ideal S512x128 .f32) (xt : FVec Ideal S1024x256 .f32) (xz : FVec Ideal S512x1024 .f32) : FVec Ideal S512x1024 .f32 :=
  mulf (exp (subf (scores xc xt) (top (scores xc xt)))) (mask xz)

/-- The weights times the whole table. -/
def acc (xc : FVec Ideal S512x128 .f32) (xt : FVec Ideal S1024x256 .f32) (xz : FVec Ideal S512x1024 .f32) : FVec Ideal S512x256 .f32 :=
  matmul dot_S512x1024_S1024x256_S512x256_1_0_0_1_n_n none (weights xc xt xz) (shapeCast S1024x256 xt shapeCasts_S1024x256_S1024x256) (constant S512x256 .f32 0x00000000#32)

/-- Each row's count of mask entries, at least one, as a column. -/
def count (xz : FVec Ideal S512x1024 .f32) : FVec Ideal S512x1 .f32 :=
  maximumf (shapeCast S512x1 (multiReduction .add [1] S512 (mask xz) 0x00000000#32 reduces_S512x1024_S512 (.inl rfl) rfl) shapeCasts_S512_S512x1)
    (broadcast S512x1 (Scalar.ofBits .f32 0x3F800000#32))

/-- Column 128 of the products, as a column. -/
def denom (xc : FVec Ideal S512x128 .f32) (xt : FVec Ideal S1024x256 .f32) (xz : FVec Ideal S512x1024 .f32) : FVec Ideal S512x1 .f32 :=
  extractStridedSlice S512x1 ![0, 128] (acc xc xt xz) slices_S512x256_o0_128_S512x1

/-- The stored value is the composition of the pieces. -/
theorem pay_eq (xc : FVec Ideal S512x128 .f32) (xt : FVec Ideal S1024x256 .f32) (xz : FVec Ideal S512x1024 .f32) :
    k0_pay1 (F := Ideal) xc xt xz
      = divf (extractStridedSlice S512x128 ![0, 0] (acc xc xt xz) slices_S512x256_o0_0_S512x128)
          (broadcastTo S512x128
            (mulf (select (cmpf .oeq (denom xc xt xz) (broadcast S512x1 (Scalar.ofBits .f32 0x00000000#32)))
                (broadcast S512x1 (Scalar.ofBits .f32 0x3F800000#32)) (denom xc xt xz)) (count xz))
            broadcasts_S512x1_S512x128) := rfl

/-! ## The pieces at their coordinates -/

theorem emb_apply (xt : FVec Ideal S1024x256 .f32) (f : Fin 1024) (k : Fin 128) : emb xt (ix2 f k) = xt (ix2 f (lo k)) := by
  unfold emb
  rw [shapeCast_self]
  exact extractStridedSlice_apply _ _ _ _ (ix2 f (lo k)) (fun a => by
    match a with
    | ⟨0, _⟩ => show f.val = 0 + f.val; omega
    | ⟨1, _⟩ => show k.val = 0 + k.val; omega)

theorem scores_apply (xc : FVec Ideal S512x128 .f32) (xt : FVec Ideal S1024x256 .f32) (p : Fin 512) (f : Fin 1024) :
    scores xc xt (ix2 p f)
      = (∑ k : Fin 128, xc (ix2 p k) * xt (ix2 f (lo k))) * Named.named (F := Ideal) κ "inv_sqrt_d" (φ := .f32) 0x3DB504F3#32 := by
  unfold scores
  rw [mulf_apply, broadcast_apply]
  congr 1
  refine (matmul_transposedRhs_zero_apply 512 128 1024 none xc (emb xt) p f).trans ?_
  exact Finset.sum_congr rfl fun k _ => by rw [emb_apply]

theorem mask_apply (xz : FVec Ideal S512x1024 .f32) (i : S512x1024.Idx) :
    mask xz i = FloatOps.sitofp (F := Ideal) .f32 ((Ideal.cmp .ogt (xz i) (Ideal.ofBits .f32 0x00000000#32)).setWidth 32) := rfl

theorem top_apply (s : FVec Ideal S512x1024 .f32) (p : Fin 512) (f : Fin 1024) :
    top s (ix2 p f) = foldMax (Ideal.ofBits .f32 0xFF800000#32) (fun g : Fin 1024 => s (ix2 p g)) := by
  unfold top
  rw [broadcastTo_a1_ab_apply _ _ p f u0, shapeCast_a_a1_apply _ _ p u0]
  exact multiReduction_maximumf_lastAxis_apply s _ _ _ _ p

theorem weights_apply (xc : FVec Ideal S512x128 .f32) (xt : FVec Ideal S1024x256 .f32) (xz : FVec Ideal S512x1024 .f32) (p : Fin 512) (f : Fin 1024) :
    weights xc xt xz (ix2 p f)
      = Ideal.exp (scores xc xt (ix2 p f) - foldMax (Ideal.ofBits .f32 0xFF800000#32) (fun g : Fin 1024 => scores xc xt (ix2 p g)))
          * mask xz (ix2 p f) := by
  show Ideal.exp (scores xc xt (ix2 p f) - top (scores xc xt) (ix2 p f)) * mask xz (ix2 p f) = _
  rw [top_apply]

theorem acc_apply (xc : FVec Ideal S512x128 .f32) (xt : FVec Ideal S1024x256 .f32) (xz : FVec Ideal S512x1024 .f32) (p : Fin 512) (n : Fin 256) :
    acc xc xt xz (ix2 p n) = ∑ f : Fin 1024, weights xc xt xz (ix2 p f) * xt (ix2 f n) := by
  unfold acc
  rw [shapeCast_self]
  exact matmul_plain_zero_apply 512 1024 256 none (weights xc xt xz) xt p n

theorem count_apply (xz : FVec Ideal S512x1024 .f32) (p : Fin 512) :
    count xz (ix2 p u0) = max (∑ f : Fin 1024, mask xz (ix2 p f)) (Ideal.ofBits .f32 0x3F800000#32) := by
  unfold count
  rw [maximumf_apply, broadcast_apply, shapeCast_a_a1_apply _ _ p u0]
  congr 1
  exact multiReduction_add_lastAxis_apply (mask xz) _ _ _ _ p

theorem denom_apply (xc : FVec Ideal S512x128 .f32) (xt : FVec Ideal S1024x256 .f32) (xz : FVec Ideal S512x1024 .f32) (p : Fin 512) :
    denom xc xt xz (ix2 p u0) = acc xc xt xz (ix2 p onesCol) := by
  unfold denom
  exact extractStridedSlice_apply _ _ _ _ (ix2 p onesCol) (fun a => by
    match a with
    | ⟨0, _⟩ => show p.val = 0 + p.val; omega
    | ⟨1, _⟩ => show 128 = 128 + 0; rfl)

/-- The stored value at row `p` and column `j` of the block. -/
theorem pay_apply (xc : FVec Ideal S512x128 .f32) (xt : FVec Ideal S1024x256 .f32) (xz : FVec Ideal S512x1024 .f32) (p : Fin 512) (j : Fin 128) :
    k0_pay1 (F := Ideal) xc xt xz (ix2 p j)
      = Ideal.div (acc xc xt xz (ix2 p (lo j)))
          (Scalar.select (Ideal.cmp .oeq (acc xc xt xz (ix2 p onesCol)) (Ideal.ofBits .f32 0x00000000#32))
              (Ideal.ofBits .f32 0x3F800000#32) (acc xc xt xz (ix2 p onesCol))
            * max (∑ f : Fin 1024, mask xz (ix2 p f)) (Ideal.ofBits .f32 0x3F800000#32)) := by
  rw [pay_eq, divf_apply, broadcastTo_a1_ab_apply _ _ p j u0, mulf_apply, select_apply, cmpf_apply, broadcast_apply, broadcast_apply,
    denom_apply, count_apply]
  have hslice : extractStridedSlice S512x128 ![0, 0] (acc xc xt xz) slices_S512x256_o0_0_S512x128 (ix2 p j) = acc xc xt xz (ix2 p (lo j)) :=
    extractStridedSlice_apply _ _ _ _ (ix2 p (lo j)) (fun a => by
      match a with
      | ⟨0, _⟩ => show p.val = 0 + p.val; omega
      | ⟨1, _⟩ => show j.val = 0 + j.val; omega)
  rw [hslice]
  generalize acc xc xt xz (ix2 p onesCol) = d
  generalize acc xc xt xz (ix2 p (lo j)) = a
  generalize (∑ f : Fin 1024, mask xz (ix2 p f)) = s
  rfl

end Cert.KernelIdeal.Pay

end
-- ==== Proof.LibSoftmaxRow.lean ====
/-
  A softmax row on the extended reals, in two spellings.

  A row of logits `x : Fin n → EReal` gives its maximum `rowMax x` (taken from −∞), the shifted exponentials
  `rowExp x c = exp (x c − rowMax x)` and their sum `rowSum x`.
  • Reciprocal spelling: each exponential times `1 / rowSum` (`attnK`), and a weighted sum of values scaled by `1 / rowSum`
    afterwards (`outK`).
  • Quotient spelling: each exponential divided by `0 + rowSum` (`attnR`), and the values weighted by the quotients (`outR`).
  The one and the zero are written as the f32 words a printed program carries (`0x3F800000`, `0x00000000`).
  Over a nonempty row of REAL logits the maximum is a real (`rowMax_coe`), every exponential a positive real and the sum a
  nonzero real (`row_real`), and the two spellings agree, for real values too (`attn_eq_of_real`, `out_eq_of_real`): division
  by a nonzero real is multiplication by its reciprocal, and a real factor moves across a finite sum.
  Also: the cast of a finite real sum is the sum of the casts (`coe_sum`), and the words of 1.0 and −∞ (`c_one`, `c_neginf`).
-/
import Idealize.ShloMosaic.PureOps.Ideal.Laws

noncomputable section

namespace Cert.LibSoftmaxRow

open Idealize.ShloMosaic

/-! ## Casts of finite sums -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The words of 1.0 and −∞ -/

theorem c_one : Ideal.ofBits .f32 0x3F800000#32 = 1 := by
  simp [Ideal.ofBits, Ideal.ieee, -EReal.coe_mul]; norm_num

theorem c_neginf : Ideal.ofBits .f32 0xFF800000#32 = ⊥ := by
  simp [Ideal.ofBits, Ideal.ieee]

variable {n : ℕ}

/-! ## The row's maximum, exponentials and sum -/

/-- The row's maximum, taken from −∞. -/
def rowMax (x : Fin n → EReal) : EReal := Finset.univ.fold max ⊥ x

/-- The exponential of a logit shifted by the row's maximum. -/
def rowExp (x : Fin n → EReal) (c : Fin n) : EReal := Ideal.exp (x c - rowMax x)

/-- The sum of the row's shifted exponentials. -/
def rowSum (x : Fin n → EReal) : EReal := ∑ c, rowExp x c

/-- The maximum of a nonempty row of reals is a real. -/
theorem rowMax_coe (hn : 0 < n) (x : Fin n → ℝ) : ∃ m : ℝ, rowMax (fun c => (x c : EReal)) = (m : EReal) := by
  have hlt : rowMax (fun c => (x c : EReal)) < ⊤ :=
    (Finset.fold_max_lt _).2 ⟨bot_lt_top, fun c _ => EReal.coe_lt_top _⟩
  have hgt : ⊥ < rowMax (fun c => (x c : EReal)) :=
    (Finset.lt_fold_max _).2 (Or.inr ⟨⟨0, hn⟩, Finset.mem_univ _, EReal.bot_lt_coe _⟩)
  exact ⟨(rowMax (fun c => (x c : EReal))).toReal, (EReal.coe_toReal hlt.ne hgt.ne').symm⟩

/-- Over a nonempty real row: every shifted exponential is a real, and their sum is a nonzero real. -/
theorem row_real (hn : 0 < n) (x : Fin n → ℝ) :
    ∃ (E : Fin n → ℝ) (L : ℝ), L ≠ 0 ∧ (∀ c, rowExp (fun c => (x c : EReal)) c = (E c : EReal))
      ∧ rowSum (fun c => (x c : EReal)) = (L : EReal) := by
  obtain ⟨m, hm⟩ := rowMax_coe hn x
  have hE : ∀ c, rowExp (fun c => (x c : EReal)) c = ((Real.exp (x c - m) : ℝ) : EReal) := fun c => by
    unfold rowExp
    rw [hm, ← EReal.coe_sub, Ideal.exp_coe]
  refine ⟨fun c => Real.exp (x c - m), ∑ c, Real.exp (x c - m), ?_, hE, ?_⟩
  · have : 0 < ∑ c : Fin n, Real.exp (x c - m) :=
      Finset.sum_pos (fun c _ => Real.exp_pos _) ⟨⟨0, hn⟩, Finset.mem_univ _⟩
    exact this.ne'
  · unfold rowSum
    rw [coe_sum]
    exact Finset.sum_congr rfl fun c _ => hE c

/-! ## The two spellings of the softmax row and of the output -/

/-- Each exponential times the reciprocal of the row's sum. -/
def attnK (x : Fin n → EReal) (c : Fin n) : EReal :=
  rowExp x c * Ideal.div (Ideal.ofBits .f32 0x3F800000#32) (rowSum x)

/-- The value rows weighted by the exponentials, scaled by the reciprocal of the row's sum afterwards. -/
def outK (x v : Fin n → EReal) : EReal :=
  (∑ c, rowExp x c * v c) * Ideal.div (Ideal.ofBits .f32 0x3F800000#32) (rowSum x)

/-- Each exponential divided by the row's sum (the sum started from zero). -/
def attnR (x : Fin n → EReal) (c : Fin n) : EReal :=
  Ideal.div (rowExp x c) (Ideal.ofBits .f32 0x00000000#32 + rowSum x)

/-- The value rows weighted by the quotients. -/
def outR (x v : Fin n → EReal) : EReal := ∑ c, attnR x c * v c

theorem attn_eq_of_real (hn : 0 < n) (x : Fin n → ℝ) (c : Fin n) :
    attnK (fun c => (x c : EReal)) c = attnR (fun c => (x c : EReal)) c := by
  obtain ⟨E, L, hL, hE, hS⟩ := row_real hn x
  unfold attnK attnR
  rw [hS, hE c, Ideal.ofBits_zero_f32, zero_add, c_one, Ideal.div_coe hL, Ideal.div_coe hL, one_mul]

theorem out_eq_of_real (hn : 0 < n) (x v : Fin n → ℝ) :
    outK (fun c => (x c : EReal)) (fun c => (v c : EReal)) = outR (fun c => (x c : EReal)) (fun c => (v c : EReal)) := by
  obtain ⟨E, L, hL, hE, hS⟩ := row_real hn x
  unfold outK outR attnR
  rw [hS, Ideal.ofBits_zero_f32, zero_add, c_one, Ideal.div_coe hL, one_mul]
  have h1 : (∑ c, rowExp (fun c => (x c : EReal)) c * (v c : EReal)) = ((∑ c, E c * v c : ℝ) : EReal) := by
    rw [coe_sum]
    exact Finset.sum_congr rfl fun c _ => by rw [hE c, EReal.coe_mul]
  have h2 : (∑ c, Ideal.div (rowExp (fun c => (x c : EReal)) c) (L : EReal) * (v c : EReal))
      = ((∑ c, E c * (1 / L) * v c : ℝ) : EReal) := by
    rw [coe_sum]
    exact Finset.sum_congr rfl fun c _ => by rw [hE c, Ideal.div_coe hL, EReal.coe_mul, EReal.coe_mul]
  rw [h1, h2, ← EReal.coe_mul, Finset.sum_mul]
  congr 1
  exact Finset.sum_congr rfl fun c _ => by ring

end Cert.LibSoftmaxRow

end
-- ==== Proof.MaskedRow.lean ====
/-
  One row of masked attention on the extended reals, in the two arrangements the two programs compute.

  A row has scores a(f), mask sources z(f) (entry f counts when z(f) > 0) and values e(f), f < n.
  • First arrangement.  The weights are  w(f) = exp (a(f) - top) * b(f),  top the maximum of ALL the row's scores and
    b(f) the mask entry as 0 or 1; the result is  (sum of w(f) * e(f)) / (guard (sum of w(f) * o(f)) * count),  where
    o is a column of ones, guard d is 1 when d = 0 and d otherwise, and count is the number of mask entries, at
    least 1.
  • Second arrangement.  The shift is the maximum of the MASKED scores (0 when no entry counts), the exponentials are
    x(f) = exp (a(f) - shift) on the mask and 0 off it, each is divided by guard (sum of x), the quotients weight the
    values, and the sum is divided by the count, computed in 32-bit integers and converted.
  Over real entries both are the real number  (sum over the mask of exp (a(f) - c) * e(f)) / ((sum over the mask of
  exp (a(f) - c)) * count)  for ANY real shift c — a softmax does not see a common shift of its scores: the factor
  exp (c' - c) leaves numerator and denominator together —, and 0 when no entry counts (every weight is then 0 and both
  guards are 1).  The integer count does not wrap because n < 2^31.
  The zero, the one and minus infinity are written as the f32 words the printed programs carry.
-/
import Idealize.ShloMosaic.PureOps.Ideal.Laws
import proofs.«112334_g69982197121800_cont_sun_m_1311_11_alg».proof.Proof.LibSoftmaxRow
import proofs.«112334_g69982197121800_cont_sun_m_1311_11_alg».proof.Proof.LibMaxReduce

noncomputable section

namespace Cert.MaskedRow

open Idealize.ShloMosaic Finset Cert.LibMaxReduce Cert.LibSoftmaxRow

abbrev zeroW : EReal := Ideal.ofBits .f32 0x00000000#32
abbrev oneW : EReal := Ideal.ofBits .f32 0x3F800000#32
abbrev ninfW : EReal := Ideal.ofBits .f32 0xFF800000#32

theorem zeroW_eq : zeroW = 0 := Ideal.ofBits_zero_f32
theorem oneW_eq : oneW = 1 := c_one
theorem ninfW_eq : ninfW = ⊥ := c_neginf

variable {n : ℕ}

/-! ## The two arrangements -/

/-- Whether an entry counts: its mask source is positive. -/
def bit (z : EReal) : BitVec 1 := Ideal.cmp .ogt z zeroW

/-- `d`, or 1 when `d` is 0. -/
def guard (d : EReal) : EReal := Scalar.select (Ideal.cmp .oeq d zeroW) oneW d

/-- The mask entry as 0 or 1. -/
def maskK (z : EReal) : EReal := FloatOps.sitofp (F := Ideal) .f32 ((bit z).setWidth 32)

/-- The first arrangement's weights. -/
def weightK (a z : Fin n → EReal) (f : Fin n) : EReal := Ideal.exp (a f - foldMax ninfW a) * maskK (z f)

/-- The first arrangement's result. -/
def outK (a z e o : Fin n → EReal) : EReal :=
  Ideal.div (∑ f, weightK a z f * e f) (guard (∑ f, weightK a z f * o f) * max (∑ f, maskK (z f)) oneW)

/-- The maximum of the masked scores, taken from minus infinity. -/
def segTop (a z : Fin n → EReal) : EReal := foldMax ninfW (fun f => Scalar.select (bit (z f)) (a f) ninfW)

/-- The shift: that maximum, or 0 when it is minus infinity. -/
def shift (s : EReal) : EReal := Scalar.select (Ideal.cmp .oeq s ninfW) zeroW s

/-- The second arrangement's exponentials. -/
def exR (a z : Fin n → EReal) (f : Fin n) : EReal :=
  Scalar.select (bit (z f)) (Ideal.exp (a f - shift (segTop a z))) zeroW

/-- The number of mask entries, in 32-bit integers. -/
def countI (z : Fin n → EReal) : BitVec 32 :=
  (Finset.univ : Finset (Fin n)).fold IntOp.addi 0#32 (fun f => (bit (z f)).setWidth 32)

/-- The second arrangement's result. -/
def outR (a z e : Fin n → EReal) : EReal :=
  Ideal.div (zeroW + ∑ f, Ideal.div (exR a z f) (guard (zeroW + ∑ g, exR a z g)) * e f)
    (FloatOps.sitofp (F := Ideal) .f32 (IntOp.maxsi 1#32 (countI z)))

/-! ## Reading the pieces over real entries -/

theorem select_ofBool {α : Type} (b : Bool) (x y : α) : Scalar.select (BitVec.ofBool b) x y = if b then x else y := by
  cases b <;> simp [Scalar.select]

theorem bit_coe (z : ℝ) : bit (z : EReal) = BitVec.ofBool (decide (0 < z)) := by
  unfold bit
  rw [zeroW_eq]
  show BitVec.ofBool (decide ((0 : EReal) < (z : EReal))) = _
  congr 1
  exact decide_eq_decide.mpr EReal.coe_pos

theorem maskK_coe (z : ℝ) : maskK (z : EReal) = ((if 0 < z then 1 else 0 : ℝ) : EReal) := by
  unfold maskK
  rw [bit_coe]
  by_cases h : 0 < z
  · rw [if_pos h, decide_eq_true h]
    show (((BitVec.setWidth 32 (BitVec.ofBool true)).toInt : ℝ) : EReal) = _
    have e : (BitVec.setWidth 32 (BitVec.ofBool true)).toInt = 1 := by decide
    rw [e]; norm_num
  · rw [if_neg h, decide_eq_false h]
    show (((BitVec.setWidth 32 (BitVec.ofBool false)).toInt : ℝ) : EReal) = _
    have e : (BitVec.setWidth 32 (BitVec.ofBool false)).toInt = 0 := by decide
    rw [e]; norm_num

theorem guard_coe (d : ℝ) : guard (d : EReal) = ((if d = 0 then 1 else d : ℝ) : EReal) := by
  unfold guard
  rw [zeroW_eq, oneW_eq]
  show Scalar.select (BitVec.ofBool (decide ((d : EReal) = 0))) 1 (d : EReal) = _
  rw [select_ofBool]
  by_cases h : d = 0
  · subst h; simp
  · rw [if_neg h, decide_eq_false (by exact_mod_cast h)]; rfl

/-- The top of a nonempty row of real scores is a real. -/
theorem top_coe (hn : 0 < n) (a : Fin n → ℝ) : ∃ M : ℝ, foldMax ninfW (fun f => (a f : EReal)) = (M : EReal) := by
  rw [ninfW_eq]
  exact rowMax_coe hn a

/-- The shift of a row of real scores is a real. -/
theorem shift_coe (a z : Fin n → ℝ) :
    ∃ s : ℝ, shift (segTop (fun f => (a f : EReal)) (fun f => (z f : EReal))) = (s : EReal) := by
  set S := segTop (fun f => (a f : EReal)) (fun f => (z f : EReal)) with hS
  have hlt : S < ⊤ := by
    rw [hS]; unfold segTop foldMax
    refine (Finset.fold_max_lt _).2 ⟨by rw [ninfW_eq]; exact bot_lt_top, fun f _ => ?_⟩
    rw [bit_coe, select_ofBool]
    split_ifs
    · exact EReal.coe_lt_top _
    · rw [ninfW_eq]; exact bot_lt_top
  unfold shift
  rw [ninfW_eq, zeroW_eq]
  show ∃ s : ℝ, Scalar.select (BitVec.ofBool (decide (S = ⊥))) 0 S = (s : EReal)
  rw [select_ofBool]
  by_cases h : S = ⊥
  · exact ⟨0, by rw [decide_eq_true h]; rfl⟩
  · exact ⟨S.toReal, by rw [decide_eq_false h]; exact (EReal.coe_toReal hlt.ne h).symm⟩

/-- The integer count of a row's mask entries is their number, when it cannot wrap. -/
theorem countI_eq (b : Fin n → Bool) :
    (Finset.univ : Finset (Fin n)).fold IntOp.addi 0#32 (fun f => (BitVec.ofBool (b f)).setWidth 32)
      = BitVec.ofNat 32 (∑ f, if b f then 1 else 0) := by
  classical
  have key : ∀ s : Finset (Fin n), s.fold IntOp.addi 0#32 (fun f => (BitVec.ofBool (b f)).setWidth 32)
      = BitVec.ofNat 32 (∑ f ∈ s, if b f then 1 else 0) := by
    intro s
    induction s using Finset.induction_on with
    | empty => simp
    | insert x s hx ih =>
      rw [Finset.fold_insert hx, Finset.sum_insert hx, ih]
      unfold IntOp.addi
      cases b x <;> simp [BitVec.ofNat_add]
  exact key _

theorem sitofp_maxsi_ofNat (k : ℕ) (hk : k < 2 ^ 31) :
    FloatOps.sitofp (F := Ideal) .f32 (IntOp.maxsi 1#32 (BitVec.ofNat 32 k)) = ((max (k : ℝ) 1 : ℝ) : EReal) := by
  show (((IntOp.maxsi 1#32 (BitVec.ofNat 32 k)).toInt : ℝ) : EReal) = _
  have hk' : (BitVec.ofNat 32 k).toInt = (k : ℤ) := by
    have h1 : (BitVec.ofNat 32 k).toNat = k := by rw [BitVec.toNat_ofNat]; exact Nat.mod_eq_of_lt (by omega)
    unfold BitVec.toInt
    rw [h1, if_pos (by omega)]
  have : (IntOp.maxsi 1#32 (BitVec.ofNat 32 k)).toInt = max (k : ℤ) 1 := by
    unfold IntOp.maxsi
    simp only [BitVec.slt, hk', decide_eq_true_eq]
    by_cases h0 : (k : ℤ) < (1#32 : BitVec 32).toInt
    · rw [if_pos h0]
      have : (1#32 : BitVec 32).toInt = 1 := by decide
      rw [this] at h0 ⊢; omega
    · rw [if_neg h0, hk']
      have : (1#32 : BitVec 32).toInt = 1 := by decide
      rw [this] at h0; omega
  rw [this]
  push_cast
  rfl

/-! ## The law -/

/-- Over real entries, with fewer than 2^31 of them and at least one, the two arrangements agree. -/
theorem outK_eq_outR (hn : 0 < n) (hn' : n < 2 ^ 31) (a z e : Fin n → ℝ) :
    outK (fun f => (a f : EReal)) (fun f => (z f : EReal)) (fun f => (e f : EReal)) (fun _ => oneW)
      = outR (fun f => (a f : EReal)) (fun f => (z f : EReal)) (fun f => (e f : EReal)) := by
  obtain ⟨M, hM⟩ := top_coe hn a
  obtain ⟨s, hs⟩ := shift_coe a z
  -- the mask as reals
  set ind : Fin n → ℝ := fun f => if 0 < z f then 1 else 0 with hind
  have hind0 : ∀ f, 0 ≤ ind f := fun f => by rw [hind]; dsimp only; split_ifs <;> norm_num
  -- the first arrangement's weights
  have hw : ∀ f, weightK (fun f => (a f : EReal)) (fun f => (z f : EReal)) f = ((Real.exp (a f - M) * ind f : ℝ) : EReal) := fun f => by
    unfold weightK
    rw [hM, maskK_coe, ← EReal.coe_sub, Ideal.exp_coe, ← EReal.coe_mul]
  -- the second arrangement's exponentials
  have hx : ∀ f, exR (fun f => (a f : EReal)) (fun f => (z f : EReal)) f = ((ind f * Real.exp (a f - s) : ℝ) : EReal) := fun f => by
    unfold exR
    rw [hs, bit_coe, select_ofBool, zeroW_eq, ← EReal.coe_sub, Ideal.exp_coe, hind]
    dsimp only
    by_cases h : 0 < z f
    · rw [decide_eq_true h, if_pos rfl, if_pos h, one_mul]
    · rw [decide_eq_false h, if_neg (by simp), if_neg h, zero_mul]; rfl
  -- the count
  have hcK : max (∑ f, maskK ((z f : ℝ) : EReal)) oneW = ((max (∑ f, ind f) 1 : ℝ) : EReal) := by
    rw [oneW_eq]
    simp only [maskK_coe]
    rw [← coe_sum, ← EReal.coe_one, ← Monotone.map_max EReal.coe_strictMono.monotone]
  have hcard : (∑ f : Fin n, if decide (0 < z f) then 1 else 0 : ℕ) ≤ n := by
    calc (∑ f : Fin n, if decide (0 < z f) then 1 else 0 : ℕ) ≤ ∑ _f : Fin n, 1 := Finset.sum_le_sum fun f _ => by split_ifs <;> omega
      _ = n := by simp
  have hcR : FloatOps.sitofp (F := Ideal) .f32 (IntOp.maxsi 1#32 (countI (fun f => ((z f : ℝ) : EReal))))
      = ((max (∑ f, ind f) 1 : ℝ) : EReal) := by
    unfold countI
    simp only [bit_coe]
    rw [countI_eq (fun f => decide (0 < z f)), sitofp_maxsi_ofNat _ (lt_of_le_of_lt hcard hn')]
    congr 2
    push_cast
    refine Finset.sum_congr rfl fun f _ => ?_
    rw [hind]; dsimp only
    by_cases h : 0 < z f
    · rw [decide_eq_true h, if_pos rfl, if_pos h]
    · rw [decide_eq_false h, if_neg (by simp), if_neg h]
  set c : ℝ := max (∑ f, ind f) 1 with hc
  have hcpos : c ≠ 0 := by have : (1 : ℝ) ≤ c := le_max_right _ _; linarith
  -- assemble both sides as reals
  unfold outK outR
  simp only [hw, hx]
  rw [hcK, hcR, zeroW_eq, oneW_eq]
  simp only [← EReal.coe_mul, ← coe_sum, mul_one, zero_add, guard_coe]
  set SR : ℝ := ∑ f, ind f * Real.exp (a f - s) with hSR
  set SK : ℝ := ∑ f, Real.exp (a f - M) * ind f with hSK
  -- the common factor
  have hk : ∀ f, Real.exp (a f - M) * ind f = Real.exp (s - M) * (ind f * Real.exp (a f - s)) := fun f => by
    rw [show a f - M = (s - M) + (a f - s) by ring, Real.exp_add]; ring
  have hSK' : SK = Real.exp (s - M) * SR := by
    rw [hSK, hSR, Finset.mul_sum]; exact Finset.sum_congr rfl fun f _ => hk f
  have hgR : (if SR = 0 then 1 else SR : ℝ) ≠ 0 := by split_ifs with h <;> [norm_num; exact h]
  have hgK : (if SK = 0 then 1 else SK : ℝ) ≠ 0 := by split_ifs with h <;> [norm_num; exact h]
  rw [Ideal.div_coe (mul_ne_zero hgK hcpos), Ideal.div_coe hcpos]
  simp only [Ideal.div_coe hgR, ← EReal.coe_mul, ← coe_sum]
  congr 1
  have hexp : Real.exp (s - M) ≠ 0 := (Real.exp_pos _).ne'
  by_cases h0 : SR = 0
  · -- no entry counts: every exponential is zero
    have hz : ∀ f, ind f * Real.exp (a f - s) = 0 := by
      have := (Finset.sum_eq_zero_iff_of_nonneg (fun f _ => mul_nonneg (hind0 f) (Real.exp_pos _).le)).1 (hSR ▸ h0)
      exact fun f => this f (Finset.mem_univ f)
    have hzK : ∀ f, Real.exp (a f - M) * ind f = 0 := fun f => by rw [hk, hz, mul_zero]
    simp only [hz, hzK, zero_mul, Finset.sum_const_zero, zero_div, mul_zero]
  · have hSK0 : SK ≠ 0 := by rw [hSK']; exact mul_ne_zero hexp h0
    rw [if_neg hSK0, if_neg h0, hSK']
    simp only [hk]
    have hL : ∑ x, Real.exp (s - M) * (ind x * Real.exp (a x - s)) * e x
        = Real.exp (s - M) * ∑ x, ind x * Real.exp (a x - s) * e x := by
      rw [Finset.mul_sum]; exact Finset.sum_congr rfl fun x _ => by ring
    have hR : ∑ i, ind i * Real.exp (a i - s) * (1 / SR) * e i
        = (1 / SR) * ∑ x, ind x * Real.exp (a x - s) * e x := by
      rw [Finset.mul_sum]; exact Finset.sum_congr rfl fun x _ => by ring
    rw [hL, hR]
    field_simp

end Cert.MaskedRow

end
-- ==== Proof.KernelValue.lean ====
/-
  The idealized kernel's result array as ONE function of the argument arrays.

  The region finds the mask source Z and the context rows C as launched, and the augmented table T that the host
  operations built: T(f, n) is the embedding table's E(f, n) for n < 128 and 1 at n = 128 (only these columns are
  read: the products are taken at the output's columns and at column 128).  Grid point t handles rows 512 t .. 512 t + 511:
  its blocks of Z and C are those rows, its block of T is all of T, and its output block is those rows of the result.
  The value it stores at (p, j) is the first arrangement of a masked attention row (MaskedRow.outK) of row 512 t + p:
  scores (sum over k of C(row, k) * E(f, k)) * scale, mask sources Z(row, f), values E(f, j), and a column of ones.
  The two output blocks tile the [1024, 128] result, so after the run the array is that function of Z, C and E at every index.
-/
import proofs.«112334_g69982197121800_cont_sun_m_1311_11_alg».proof.Proof.FrameIdeal
import proofs.«112334_g69982197121800_cont_sun_m_1311_11_alg».proof.Proof.KernelPayload
import proofs.«112334_g69982197121800_cont_sun_m_1311_11_alg».proof.Proof.MaskedRow
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Frame Cert.KernelIdeal.Pay
open Idealize.ShloMosaic Idealize.ShloMosaic.TcCoe Idealize.SL.Sem Idealize.ShloMosaic.ValueIdx Idealize.ShloMosaic.StableHlo
open Idealize.ShloMosaic.Pipeline (Dat)
open Cert.MaskedRow

variable (m : (ℓ : Loc nD τ sig) → Buf (Elt Ideal) ℓ) (ρ : Dev nD → PrngReg)

/-- The scale the scores are multiplied by. -/
abbrev scaleV : EReal := Named.named (F := Ideal) κ "inv_sqrt_d" (φ := .f32) 0x3DB504F3#32

/-! ## The stored value as a row's first arrangement -/

theorem pay_row (xc : FVec Ideal S512x128 .f32) (xt : FVec Ideal S1024x256 .f32) (xz : FVec Ideal S512x1024 .f32) (p : Fin 512) (j : Fin 128) :
    k0_pay1 (F := Ideal) xc xt xz (ix2 p j)
      = outK (fun f : Fin 1024 => (∑ k : Fin 128, xc (ix2 p k) * xt (ix2 f (lo k))) * scaleV) (fun f => xz (ix2 p f))
          (fun f => xt (ix2 f (lo j))) (fun f => xt (ix2 f onesCol)) := by
  rw [pay_apply]
  simp only [acc_apply, weights_apply, scores_apply]
  rfl

/-! ## The result as one function of the arrays -/

/-- The result at index i: the first arrangement of row `i 0`, with the table's column `i 1` as the values. -/
def G (Z : S1024x1024.Idx → EReal) (C E : S1024x128.Idx → EReal) : S1024x128.Idx → EReal := fun i =>
  outK (fun f : Fin 1024 => (∑ k : Fin 128, C (ix2 (i 0) k) * E (ix2 f k)) * scaleV) (fun f => Z (ix2 (i 0) f))
    (fun f => E (ix2 f (i 1))) (fun _ => oneW)

/-- A block's stored value is `G` at the block's place, for blocks that are the rows `r0 * 512 ..` of Z and C and a
    table whose first 128 columns are E and whose column 128 is ones. -/
theorem block_eq (Z : S1024x1024.Idx → EReal) (C E : S1024x128.Idx → EReal)
    (xc : FVec Ideal S512x128 .f32) (xt : FVec Ideal S1024x256 .f32) (xz : FVec Ideal S512x1024 .f32)
    (y : S512x128.Idx) (i : S1024x128.Idx) (hi1 : i 1 = y 1)
    (hz : ∀ f : Fin 1024, xz (ix2 (y 0) f) = Z (ix2 (i 0) f))
    (hc : ∀ k : Fin 128, xc (ix2 (y 0) k) = C (ix2 (i 0) k))
    (hlo : ∀ (f : Fin 1024) (k : Fin 128), xt (ix2 f (lo k)) = E (ix2 f k))
    (hone : ∀ f : Fin 1024, xt (ix2 f onesCol) = oneW) :
    k0_pay1 (F := Ideal) xc xt xz y = G Z C E i := by
  obtain ⟨p, j, rfl⟩ : ∃ (p : Fin 512) (j : Fin 128), y = ix2 p j := ⟨y 0, y 1, eq_ix2 y⟩
  rw [pay_row]
  unfold G
  have hp : (ix2 p j : S512x128.Idx) 0 = p := rfl
  have hj : (ix2 p j : S512x128.Idx) 1 = j := rfl
  rw [hp] at hz hc
  rw [hj] at hi1
  simp only [hz, hc, hlo, hone, hi1]

/-! ## The table the region finds -/

/-- The three pieces the host concatenates along the columns: the embedding table, a column of ones, 127 columns of zeros. -/
abbrev pieces (c : Dev nD) : List ((s : Shape) × (s.Idx → EReal)) :=
  [⟨S1024x128, (m ((c : Thread nD τ).loc main_arg2) : S1024x128.Idx → EReal)⟩,
   ⟨S1024x1, broadcastInDim S1024x1 ![] bcast_S_S1024x1 (constant (F := Ideal) S_ .f32 0x3F800000#32)⟩,
   ⟨S1024x127, broadcastInDim S1024x127 ![] bcast_S_S1024x127 (constant (F := Ideal) S_ .f32 0x00000000#32)⟩]

/-- The host operations leave their concatenation in the table's buffer. -/
theorem table_eq (c : Dev nD) :
    (V m c main_v2 : S1024x256.Idx → EReal)
      = concatenate S1024x256 1 (pieces m c) concatenates_S1024x128_S1024x1_S1024x127_S1024x256_d1 := by
  dsimp only [V, hostOps0]
  after_results
  rfl

theorem table_lo (c : Dev nD) (f : Fin 1024) (k : Fin 128) :
    (V m c main_v2 : S1024x256.Idx → EReal) (ix2 f (lo k)) = (m ((c : Thread nD τ).loc main_arg2) : S1024x128.Idx → EReal) (ix2 f k) := by
  rw [table_eq]
  refine concatenate_apply_piece (t := S1024x256) (1 : Fin 2) (pieces m c) concatenates_S1024x128_S1024x1_S1024x127_S1024x256_d1 (ix2 f (lo k)) 0 ?_ S1024x128 _ rfl rfl 0 rfl (ix2 f k)
    (fun b hb => by
      match b with
      | ⟨0, _⟩ => rfl
      | ⟨1, _⟩ => exact absurd rfl hb)
    (by show 0 + k.val = k.val; omega)
  show (0 : ℕ) < 3
  decide

theorem table_ones (c : Dev nD) (f : Fin 1024) :
    (V m c main_v2 : S1024x256.Idx → EReal) (ix2 f onesCol) = oneW := by
  rw [table_eq]
  refine (concatenate_apply_piece (t := S1024x256) (1 : Fin 2) (pieces m c) concatenates_S1024x128_S1024x1_S1024x127_S1024x256_d1 (ix2 f onesCol) 1 ?_ S1024x1 _ rfl rfl 128 rfl (ix2 f Pay.u0)
    (fun b hb => by
      match b with
      | ⟨0, _⟩ => rfl
      | ⟨1, _⟩ => exact absurd rfl hb)
    (by show 128 + 0 = 128; rfl)).trans ?_
  · show (1 : ℕ) < 3
    decide
  · rw [broadcastInDim_apply _ bcast_S_S1024x1 _ _ ix0 (fun a => a.elim0)]
    rfl

/-! ## From blocks to the array -/

theorem hz2 : (![0, 0] : Fin 2 → Nat) = fun _ => 0 := funext fun a => by fin_cases a <;> rfl

/-- The printed index maps over the two grid points: the blocks of Z, C and the result move together along the rows,
    nothing moves along the columns, and the table's block is the whole table. -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 1 :=
  (by decide +kernel : ∀ t : Fin grid0.N, _)

/-- Every block row of the result is some point's. -/
theorem idx_onto : ∀ q0 : Fin 2, ∃ t : Fin cfg0.N, win0_3.index t = ![q0.val, 0] :=
  (by decide +kernel : ∀ q0 : Fin 2, ∃ t : Fin grid0.N, win0_3.index t = ![q0.val, 0])

/-- What point `t` writes back is block `t` of `G` of the arrays as the region finds them. -/
theorem flushed_eq (c : Dev nD) (t : Fin cfg0.N) :
    (dats m 0 c).flushed 3 t = ((cfg0.win 3).blk t).view.read (Elt Ideal)
      (G (V m c main_arg0) (V m c main_arg1) (m ((c : Thread nD τ).loc main_arg2))) := by
  show (cfg0.win 3).cut (grid0.coords t) ((dats m 0 c).after 3 t) = _
  rw [after0_3]
  unfold outBlock
  rw [View.canon_unit_zero hz2]
  simp only [View.ld_unit_zero (S := S512x128) hz2, View.ld_unit_zero (S := S1024x256) hz2, View.ld_unit_zero (S := S512x1024) hz2]
  obtain ⟨e0, e1, e2, e3, e4, e5, e6, e7⟩ := idx_facts t
  funext y
  refine block_eq (V m c main_arg0) (V m c main_arg1) (m ((c : Thread nD τ).loc main_arg2))
    (iblk m c 1 t) (iblk m c 2 t) (iblk m c 0 t) y (((cfg0.win 3).blk t).view.emb y) ?_ ?_ ?_ ?_ ?_
  · apply Fin.ext
    show win0_3.index t (1 : Fin 2) * 128 + 1 * (y 1).val = (y 1).val
    omega
  · intro f
    show V m c main_arg0 (((cfg0.win 0).blk t).view.emb (ix2 (y 0) f)) = V m c main_arg0 (ix2 ((((cfg0.win 3).blk t).view.emb y) 0) f)
    congr 1
    funext a; apply Fin.ext
    match a with
    | ⟨0, _⟩ => show win0_0.index t (0 : Fin 2) * 512 + 1 * (y 0).val = win0_3.index t (0 : Fin 2) * 512 + 1 * (y 0).val; omega
    | ⟨1, _⟩ => show win0_0.index t (1 : Fin 2) * 1024 + 1 * f.val = f.val; omega
  · intro k
    show V m c main_arg1 (((cfg0.win 1).blk t).view.emb (ix2 (y 0) k)) = V m c main_arg1 (ix2 ((((cfg0.win 3).blk t).view.emb y) 0) k)
    congr 1
    funext a; apply Fin.ext
    match a with
    | ⟨0, _⟩ => show win0_1.index t (0 : Fin 2) * 512 + 1 * (y 0).val = win0_3.index t (0 : Fin 2) * 512 + 1 * (y 0).val; omega
    | ⟨1, _⟩ => show win0_1.index t (1 : Fin 2) * 128 + 1 * k.val = k.val; omega
  · intro f k
    have hidx : ((cfg0.win 2).blk t).view.emb (ix2 f (lo k)) = ix2 f (lo k) := by
      funext a; apply Fin.ext
      match a with
      | ⟨0, _⟩ => show win0_2.index t (0 : Fin 2) * 1024 + 1 * f.val = f.val; omega
      | ⟨1, _⟩ => show win0_2.index t (1 : Fin 2) * 256 + 1 * k.val = k.val; omega
    show V m c main_v2 (((cfg0.win 2).blk t).view.emb (ix2 f (lo k))) = _
    rw [hidx]
    exact table_lo m c f k
  · intro f
    have hidx : ((cfg0.win 2).blk t).view.emb (ix2 f onesCol) = ix2 f onesCol := by
      funext a; apply Fin.ext
      match a with
      | ⟨0, _⟩ => show win0_2.index t (0 : Fin 2) * 1024 + 1 * f.val = f.val; omega
      | ⟨1, _⟩ => show win0_2.index t (1 : Fin 2) * 256 + 1 * 128 = 128; omega
    show V m c main_v2 (((cfg0.win 2).blk t).view.emb (ix2 f onesCol)) = _
    rw [hidx]
    exact table_ones m c f

/-- An index of the result is in point `t`'s block iff each coordinate is in the block's range on its axis. -/
theorem mem_blk (t : Fin cfg0.N) (i : S1024x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v3).slice (win0_3.rect t)).set ↔ _
  rw [View.set_slice_whole, Rect.mem_set_unit]
  exact Iff.rfl

/-- The two blocks cover the result. -/
theorem cover (i : S1024x128.Idx) : ∃ t : Fin cfg0.N, (cfg0.win 3).flush t = true ∧ i ∈ ((cfg0.win 3).blk t).view.set := by
  have hi0 : (i 0).val < 1024 := (i 0).isLt
  have hi1 : (i 1).val < 128 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-- The result array after the run. -/
theorem final (c : Dev nD) :
    (dats m 0 c).arrAt 3 cfg0.N = G (V m c main_arg0) (V m c main_arg1) (m ((c : Thread nD τ).loc main_arg2)) :=
  (dats m 0 c).arrAt_eq_of_cover 3 _ (fun t _ => flushed_eq m c t) cover

/-- The run: every weakly fair execution of @main terminates with the result array at `G` of the argument arrays as
    launched, and the argument arrays unchanged. -/
theorem run : θ_run defs (onTc (τ := τ) (main (F := Ideal))) ⟨m, fun _ => 0, ρ⟩ fun r => ∀ c : Dev nD,
      r.2.mem ((c.tc : Thread nD τ).loc main_v3)
          = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).1 3).trans ((final m c).trans (by rw [V_main_arg0, V_main_arg1])),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (V_main_arg2 m c)⟩)
    (run_main m ρ)

end Cert.KernelIdeal.Whole

end
-- ==== Proof.LibHostAddI.lean ====
/-
  The host's one-operand reduce with an integer addition body over the LAST axis of an [a, b] matrix of 32-bit words,
  read at row p: the fold of that row's b entries by addition, from the initial value's element.  The library states
  the reduce as a fold over the reduced axis's coordinates with the result index lifted into the operand; here the
  lifted index is written by coordinates.
-/
import Idealize.ShloMosaic.Lib.ValueIdx
import Idealize.ShloMosaic.PureOps.Reduce

noncomputable section

namespace Cert.LibHostAddI

open Idealize.ShloMosaic Idealize.ShloMosaic.ValueIdx

theorem hostReduce_addi_lastAxis_apply {a b : ℕ} {u : Shape} (x : (⟨2, ![a, b]⟩ : Shape).Idx → BitVec 32) (init : u.Idx → BitVec 32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (IntOp.addi (w := 32)) x init h' hu (ix1 p)
      = (Finset.univ : Finset (Fin b)).fold IntOp.addi (init (Shape.Idx.first hu)) (fun k : Fin b => x (ix2 p k)) := by
  refine (Host.reduce_eq_fold_single (IntOp.addi (w := 32)) x init h' h hu (ix1 p)).trans ?_
  refine congrArg (fun f : Fin b → BitVec 32 => Finset.fold IntOp.addi (init (Shape.Idx.first hu)) f Finset.univ) (funext fun k => congrArg x ?_)
  funext ax; apply Fin.ext
  match ax with
  | ⟨0, _⟩ => rfl
  | ⟨1, _⟩ => rfl

end Cert.LibHostAddI

end
-- ==== Proof.RefValue.lean ====
/-
  The reference's result read at a row r and a column j, stage by stage, at the ideal values.

  With Z the mask source (1024 x 1024), C the context rows and E the embedding table (both 1024 x 128):
      score    a(r, f) = (0 + sum over k < 128 of C(r, k) * E(f, k)) / D,       D the word of sqrt 128,
      masked   the score where Z(r, f) > 0, minus infinity elsewhere,
      top      the maximum over f of the masked scores (from minus infinity), replaced by 0 when it is minus infinity,
      x(r, f)  = exp (a(r, f) - top(r)) where Z(r, f) > 0, 0 elsewhere,
      sum      0 + sum over f of x(r, f), replaced by 1 when it is 0,
      out      (0 + sum over f of (x(r, f) / sum(r)) * E(f, j)) / count(r),
  count(r) the number of f with Z(r, f) > 0, summed in 32-bit integers, raised to at least 1 and converted.
  The broadcasts through [1024, 1, 128], [1, 1024, 128], [1024, 1024, 1] and [1024, 1024, 128] only re-index: each
  composed index function is identified with the coordinates it names.  The whole is the second arrangement of a
  masked attention row (MaskedRow.outR) of the row's scores, mask sources and the table's column j.
-/
import proofs.«112334_g69982197121800_cont_sun_m_1311_11_alg».proof.Proof.RefRead
import proofs.«112334_g69982197121800_cont_sun_m_1311_11_alg».proof.Proof.MaskedRow
import proofs.«112334_g69982197121800_cont_sun_m_1311_11_alg».proof.Proof.LibMaxReduce
import proofs.«112334_g69982197121800_cont_sun_m_1311_11_alg».proof.Proof.LibHostAddI
import Idealize.ShloMosaic.Lib.ValueIdx
import Idealize.ShloMosaic.PureOps.Ideal.Laws

noncomputable section

namespace Cert.ReferenceIdeal.RefRow

open Cert.ReferenceIdeal Cert.ReferenceIdeal.Gen Cert.ReferenceIdeal.ReadP Idealize.ShloMosaic Idealize.ShloMosaic.ValueIdx
open Cert.MaskedRow Cert.LibMaxReduce Cert.LibHostAddI

/-- The contents of a [1024, 1024] float buffer, and of a [1024, 128] one, at the ideal values. -/
abbrev MatZ : Type := (⟨S1024x1024, .f32⟩ : BufTy).Contents (Elt Ideal)
abbrev MatE : Type := (⟨S1024x128, .f32⟩ : BufTy).Contents (Elt Ideal)

abbrev u0 : Fin 1 := ⟨0, Nat.one_pos⟩

/-- The word the scores are divided by. -/
abbrev divisorW : EReal := Ideal.ofBits .f32 0x413504F3#32

/-- The score of row r against table row f. -/
theorem score_apply (C E : MatE) (r f : Fin 1024) :
    val_main_v9 (F := Ideal) C E (ix2 r f) = Ideal.div (zeroW + ∑ k : Fin 128, C (ix2 r k) * E (ix2 f k)) divisorW := by
  have h6 : ∀ k : Fin 128, val_main_v6 (F := Ideal) C E (idx_main_v7 (ix2 r f) k) = C (ix2 r k) * E (ix2 f k) := fun k => by
    rw [val_main_v6_apply, val_main_v4_apply, val_main_v2_apply, val_main_v5_apply, val_main_v3_apply]
    have e1 : idx_main_v2 (idx_main_v4 (idx_main_v7 (ix2 r f) k)) = ix2 r k :=
      funext fun a => Fin.ext (by match a with | ⟨0, _⟩ => rfl | ⟨1, _⟩ => rfl)
    have e2 : idx_main_v3 (idx_main_v5 (idx_main_v7 (ix2 r f) k)) = ix2 f k :=
      funext fun a => Fin.ext (by match a with | ⟨0, _⟩ => rfl | ⟨1, _⟩ => rfl)
    rw [e1, e2]; rfl
  rw [val_main_v9_apply, val_main_v7_apply, val_main_v8_apply]
  simp only [h6]
  rfl

/-- Whether entry (r, f) counts. -/
theorem bit_apply (Z : MatZ) (r f : Fin 1024) : val_main_v1 (F := Ideal) Z (ix2 r f) = bit (Z (ix2 r f)) := by
  rw [val_main_v1_apply, val_main_v0_apply]; rfl

/-- The masked score. -/
theorem masked_apply (Z : MatZ) (C E : MatE) (r f : Fin 1024) :
    val_main_v10 (F := Ideal) Z C E (ix2 r f)
      = Scalar.select (bit (Z (ix2 r f))) (val_main_v9 (F := Ideal) C E (ix2 r f)) ninfW := by
  rw [val_main_v10_apply, bit_apply, val_main_call0_v1_apply]; rfl

/-- The maximum of the row's masked scores. -/
theorem segTop_apply (Z : MatZ) (C E : MatE) (r : Fin 1024) :
    val_main_v11 (F := Ideal) Z C E (ix1 r)
      = segTop (fun f => val_main_v9 (F := Ideal) C E (ix2 r f)) (fun f => Z (ix2 r f)) := by
  unfold val_main_v11 segTop
  refine (hostReduce_maximumf_lastAxis_apply (val_main_v10 (F := Ideal) Z C E) (val_main_cst_3 (F := Ideal))
    reducesTo_S1024x1024_S1024_d1 (by decide) h_S_ r).trans ?_
  simp only [masked_apply]
  rfl

/-- The shift. -/
theorem shift_apply (Z : MatZ) (C E : MatE) (r : Fin 1024) :
    val_main_v14 (F := Ideal) Z C E (ix1 r) = shift (val_main_v11 (F := Ideal) Z C E (ix1 r)) := by
  rw [val_main_v14_apply, val_main_v13_apply, val_main_v12_apply, val_main_call1_v1_apply]; rfl

/-- The exponentials. -/
theorem exR_apply (Z : MatZ) (C E : MatE) (r f : Fin 1024) :
    val_main_v19 (F := Ideal) Z C E (ix2 r f)
      = exR (fun f => val_main_v9 (F := Ideal) C E (ix2 r f)) (fun f => Z (ix2 r f)) f := by
  have e : idx_main_v15 (idx_main_v16 (ix2 r f)) = ix1 r := funext fun a => Fin.ext (by match a with | ⟨0, _⟩ => rfl)
  rw [val_main_v19_apply, bit_apply, val_main_v18_apply, val_main_v17_apply, val_main_v16_apply, val_main_v15_apply, e,
    shift_apply, segTop_apply, val_main_call2_v1_apply]
  rfl

/-- Their sum. -/
theorem sumR_apply (Z : MatZ) (C E : MatE) (r : Fin 1024) :
    val_main_v20 (F := Ideal) Z C E (ix1 r)
      = zeroW + ∑ g : Fin 1024, exR (fun f => val_main_v9 (F := Ideal) C E (ix2 r f)) (fun f => Z (ix2 r f)) g := by
  have e : ∀ k : Fin 1024, idx_main_v20 (ix1 r) k = ix2 r k := fun k =>
    funext fun a => Fin.ext (by match a with | ⟨0, _⟩ => rfl | ⟨1, _⟩ => rfl)
  rw [val_main_v20_apply]
  simp only [e, exR_apply]
  rfl

/-- The sum, or 1 when it is 0. -/
theorem guardR_apply (Z : MatZ) (C E : MatE) (r : Fin 1024) :
    val_main_v23 (F := Ideal) Z C E (ix1 r) = guard (val_main_v20 (F := Ideal) Z C E (ix1 r)) := by
  rw [val_main_v23_apply, val_main_v22_apply, val_main_v21_apply, val_main_call3_v1_apply]; rfl

/-- The quotients. -/
theorem quot_apply (Z : MatZ) (C E : MatE) (r f : Fin 1024) :
    val_main_v26 (F := Ideal) Z C E (ix2 r f)
      = Ideal.div (val_main_v19 (F := Ideal) Z C E (ix2 r f)) (val_main_v23 (F := Ideal) Z C E (ix1 r)) := by
  have e : idx_main_v24 (idx_main_v25 (ix2 r f)) = ix1 r := funext fun a => Fin.ext (by match a with | ⟨0, _⟩ => rfl)
  rw [val_main_v26_apply, val_main_v25_apply, val_main_v24_apply, e]; rfl

/-- The weighted sum of the table's column j. -/
theorem wsum_apply (Z : MatZ) (C E : MatE) (r : Fin 1024) (j : Fin 128) :
    val_main_v32 (F := Ideal) Z C E (ix2 r j)
      = zeroW + ∑ f : Fin 1024, val_main_v26 (F := Ideal) Z C E (ix2 r f) * E (ix2 f j) := by
  have h31 : ∀ f : Fin 1024, val_main_v31 (F := Ideal) Z C E (idx_main_v32 (ix2 r j) f)
      = val_main_v26 (F := Ideal) Z C E (ix2 r f) * E (ix2 f j) := fun f => by
    rw [val_main_v31_apply, val_main_v29_apply, val_main_v27_apply, val_main_v30_apply, val_main_v28_apply]
    have e1 : idx_main_v27 (idx_main_v29 (idx_main_v32 (ix2 r j) f)) = ix2 r f :=
      funext fun a => Fin.ext (by match a with | ⟨0, _⟩ => rfl | ⟨1, _⟩ => rfl)
    have e2 : idx_main_v28 (idx_main_v30 (idx_main_v32 (ix2 r j) f)) = ix2 f j :=
      funext fun a => Fin.ext (by match a with | ⟨0, _⟩ => rfl | ⟨1, _⟩ => rfl)
    rw [e1, e2]; rfl
  rw [val_main_v32_apply]
  simp only [h31]
  rfl

/-- The row's count, converted. -/
theorem count_apply (Z : MatZ) (r : Fin 1024) (j : Fin 128) :
    val_main_v38 (F := Ideal) Z (ix2 r j)
      = FloatOps.sitofp (F := Ideal) .f32 (IntOp.maxsi 1#32 (countI (fun f => Z (ix2 r f)))) := by
  have e : idx_main_v36 (idx_main_v38 (ix2 r j)) = ix1 r := funext fun a => Fin.ext (by match a with | ⟨0, _⟩ => rfl)
  have h34 : val_main_v34 (F := Ideal) Z (ix1 r) = countI (fun f => Z (ix2 r f)) := by
    unfold val_main_v34 countI
    refine (hostReduce_addi_lastAxis_apply (val_main_v33 (F := Ideal) Z) (val_main_c (F := Ideal))
      reducesTo_S1024x1024_S1024_d1 (by decide) h_S_ r).trans ?_
    simp only [val_main_v33_apply, bit_apply]
    rfl
  rw [val_main_v38_apply, val_main_v37_apply, val_main_v36_apply, e, val_main_v35_apply, h34, val_main_call4_v1_apply]
  rfl

/-- The reference's result at (r, j) is the second arrangement of the row. -/
theorem out_apply (Z : MatZ) (C E : MatE) (r : Fin 1024) (j : Fin 128) :
    val_main_v39 (F := Ideal) Z C E (ix2 r j)
      = outR (fun f => val_main_v9 (F := Ideal) C E (ix2 r f)) (fun f => Z (ix2 r f)) (fun f => E (ix2 f j)) := by
  rw [val_main_v39_apply, wsum_apply, count_apply]
  simp only [quot_apply, guardR_apply, sumR_apply, exR_apply]
  rfl

end Cert.ReferenceIdeal.RefRow

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«112334_g69982197121800_cont_sun_m_1311_11_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.Bridge.lean ====
/-
  The two programs compute one function of finite arguments.

  Under the precondition every entry of the three argument arrays is a real.  Then, row by row:
  • the two score spellings agree: the kernel multiplies the sum of products by the named constant, which denotes
    1048576 / 11863283, and the reference divides 0 + the same sum by the word of sqrt 128, which denotes
    11863283 / 1048576; division by a nonzero real is multiplication by its reciprocal;
  • the kernel's value at (r, j) is the first arrangement of the masked attention row r with the table's column j
    as values, the reference's is the second arrangement of the same row, and over real entries the two
    arrangements agree (MaskedRow.outK_eq_outR), 1024 entries being fewer than 2^31.
-/
import proofs.«112334_g69982197121800_cont_sun_m_1311_11_alg».proof.Proof.KernelValue
import proofs.«112334_g69982197121800_cont_sun_m_1311_11_alg».proof.Proof.RefValue
import proofs.«112334_g69982197121800_cont_sun_m_1311_11_alg».proof.Proof.LibFinitePre
import proofs.«112334_g69982197121800_cont_sun_m_1311_11_alg».proof.Proof.LibRealEntries
import proofs.«112334_g69982197121800_cont_sun_m_1311_11_alg».proof.Proof.Gen.Pre_finite_inputs
import Idealize.ShloMosaic.PureOps.IdealRules
import Idealize.ShloMosaic.Lib.Affine

noncomputable section

namespace Cert.Bridge

open Idealize.ShloMosaic Idealize.ShloMosaic.ValueIdx
open Cert.MaskedRow Cert.LibRealEntries Cert.LibFinitePre Cert.LibSoftmaxRow
open Cert.KernelIdeal.Whole Cert.ReferenceIdeal.RefRow Cert.ReferenceIdeal.ReadP

/-! ## Finite arguments are real -/

/-- The precondition, evaluated: every entry of the three arrays is a real. -/
theorem real_of_pre (Z : FVec Ideal Cert.Pre_finite_inputs.S1024x1024 .f32) (C E : FVec Ideal Cert.Pre_finite_inputs.S1024x128 .f32)
    (h : Cert.Pre_finite_inputs.fn (F := Ideal) Z C E = fun _ => 1#1) :
    (∀ i, IsReal (Z i)) ∧ (∀ i, IsReal (C i)) ∧ (∀ i, IsReal (E i)) := by
  have h0 := congrFun h ix0
  dsimp only [Cert.Pre_finite_inputs.fn] at h0
  obtain ⟨h01, h2⟩ := IntOp.andi_eq_one.mp h0
  obtain ⟨hz, h1⟩ := IntOp.andi_eq_one.mp h01
  exact ⟨all_real Z _ _ _ hz, all_real C _ _ _ h1, all_real E _ _ _ h2⟩

/-! ## The two constants -/

/-- The kernel's named scale denotes 1048576 / 11863283. -/
theorem scale_eq : scaleV = ((1048576 / 11863283 : ℝ) : EReal) :=
  IdealRules.named_const.ideal_named_scalar _ _ _ _ rfl

/-- The reference's divisor word denotes 11863283 / 1048576. -/
theorem divisor_eq : divisorW = ((11863283 / 1048576 : ℝ) : EReal) := by
  simp [Ideal.ofBits, Ideal.ieee, -EReal.coe_mul]; norm_num

/-! ## One row's scores, in the two spellings -/

theorem scoreK_coe {n : ℕ} (c e : Fin n → ℝ) :
    (∑ k, (c k : EReal) * (e k : EReal)) * scaleV = (((∑ k, c k * e k) * (1048576 / 11863283) : ℝ) : EReal) := by
  rw [scale_eq]
  simp only [← EReal.coe_mul, ← coe_sum]

theorem scoreR_coe {n : ℕ} (c e : Fin n → ℝ) :
    Ideal.div (zeroW + ∑ k, (c k : EReal) * (e k : EReal)) divisorW = (((∑ k, c k * e k) * (1048576 / 11863283) : ℝ) : EReal) := by
  rw [divisor_eq, Ideal.div_coe (by norm_num), zeroW_eq, zero_add]
  simp only [← EReal.coe_mul, ← coe_sum]
  congr 2
  norm_num

/-! ## The arrays -/

/-- Over real entries the kernel's function of the arrays is the reference's. -/
theorem G_eq_ref (Z : Cert.KernelIdeal.S1024x1024.Idx → EReal) (C E : Cert.KernelIdeal.S1024x128.Idx → EReal)
    (hZ : ∀ i, IsReal (Z i)) (hC : ∀ i, IsReal (C i)) (hE : ∀ i, IsReal (E i)) :
    G Z C E = val_main_v39 (F := Ideal) Z C E := by
  choose z hz using hZ
  choose c hc using hC
  choose e he using hE
  funext i
  obtain ⟨r, j, rfl⟩ : ∃ (r : Fin 1024) (j : Fin 128), i = ix2 r j := ⟨i 0, i 1, eq_ix2 i⟩
  rw [out_apply]
  show outK (fun f : Fin 1024 => (∑ k : Fin 128, C (ix2 r k) * E (ix2 f k)) * scaleV) (fun f => Z (ix2 r f))
      (fun f => E (ix2 f j)) (fun _ => oneW) = _
  simp only [score_apply, hz, hc, he, scoreK_coe, scoreR_coe]
  exact outK_eq_outR (by norm_num) (by norm_num) _ _ _

end Cert.Bridge

end
-- ==== Proof.lean ====
/-
  Masked attention with a per-row count, fused in one kernel, against its plain reference.

  The kernel forms the scores of 512 context rows against the embedding table on the matrix unit, scales them by
  1 / sqrt 128 (a constant read as the reciprocal of the reference's divisor word), subtracts each row's largest
  score, exponentiates, zeroes the entries off the mask (mask source > 0), and multiplies the weights by the table
  augmented with a column of ones, so that the same product yields the weighted sum of embeddings and the sum of
  the weights; it divides the first by the second (1 if it is 0) times the row's mask count (at least 1).
  The reference masks the scores with minus infinity, subtracts the masked maximum, normalises the exponentials,
  weights the embeddings and divides by the count.  A softmax is unchanged by a common shift of its scores, so over
  finite arguments the two agree entry by entry (Bridge.lean over MaskedRow.lean).
  The three frames: both kernel programs run through the pipeline library's frame theorem with the body's one
  stored value left unopened (FrameBits.lean, FrameIdeal.lean); the reference's is its run with the result dropped.
  The one rewrite of the idealization names the scale constant; its statement is the rule's.
-/
import proofs.«112334_g69982197121800_cont_sun_m_1311_11_alg».proof.Defs
import proofs.«112334_g69982197121800_cont_sun_m_1311_11_alg».proof.Proof.Gen.Kernel
import proofs.«112334_g69982197121800_cont_sun_m_1311_11_alg».proof.Proof.Gen.KernelIdeal
import proofs.«112334_g69982197121800_cont_sun_m_1311_11_alg».proof.Proof.Gen.ReferenceIdeal
import proofs.«112334_g69982197121800_cont_sun_m_1311_11_alg».proof.Proof.Gen.Pre_finite_inputs
import proofs.«112334_g69982197121800_cont_sun_m_1311_11_alg».proof.Proof.RefRun
import proofs.«112334_g69982197121800_cont_sun_m_1311_11_alg».proof.Proof.RefRead
import proofs.«112334_g69982197121800_cont_sun_m_1311_11_alg».proof.Proof.FrameIdeal
import proofs.«112334_g69982197121800_cont_sun_m_1311_11_alg».proof.Proof.FrameBits
import proofs.«112334_g69982197121800_cont_sun_m_1311_11_alg».proof.Proof.KernelValue
import proofs.«112334_g69982197121800_cont_sun_m_1311_11_alg».proof.Proof.RefValue
import proofs.«112334_g69982197121800_cont_sun_m_1311_11_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The one entry of the idealization's ledger: the scale constant's word is named, and the name denotes
    1048576 / 11863283, the reciprocal of the reference's divisor word. -/
theorem preserves : Cert.preserves_Kernel_KernelIdeal :=
  IdealRules.named_const.statement Cert.KernelIdeal.κ "inv_sqrt_d" .f32 0x3DB504F3#32 ((1048576 / 11863283 : ℝ) : EReal) rfl

/-- From memories agreeing on finite arguments both idealized programs end with the same result array: the kernel's
    at its function of the arrays, the reference's at its own, and the two functions agree on real entries. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v39_eq, (hagree c).1, (hagree c).2.1, (hagree c).2.2]
  obtain ⟨hZ, hC, hE⟩ := Cert.Bridge.real_of_pre _ _ _ (hpre c)
  exact (Cert.Bridge.G_eq_ref _ _ _ hZ hC hE).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
